-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S_ : Shape := ⟨0, ![]⟩
abbrev S4x2048 : Shape := ⟨2, ![4, 2048]⟩
abbrev S4x2048x1 : Shape := ⟨3, ![4, 2048, 1]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4x2048x16 : S_.BroadcastsInDim S4x2048x16 (![] : Fin 0 → Fin S4x2048x16.rank)
  reducesTo_S4x2048x16_S_d0_1_2 : S4x2048x16.ReducesTo [0, 1, 2] S_
  bcast_S_S4x16x2048 : S_.BroadcastsInDim S4x16x2048 (![] : Fin 0 → Fin S4x16x2048.rank)
  reducesTo_S4x16x2048_S_d0_1_2 : S4x16x2048.ReducesTo [0, 1, 2] S_
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  reducesTo_S4x2048x1_S_d0_1_2 : S4x2048x1.ReducesTo [0, 1, 2] S_
  dot_S4x2048x2048_S4x2048x16_S4x2048x16_2_1_1_2_0_0_wf : DotDims.WF S4x2048x2048 S4x2048x16 S4x2048x16 [2] [1] [1] [2] [0] [0]
  dot_S4x2048x16_S4x16x2048_S4x2048x2048_2_1_1_2_0_0_wf : DotDims.WF S4x2048x16 S4x16x2048 S4x2048x2048 [2] [1] [1] [2] [0] [0]

variable [Facts]

def dot_S4x2048x2048_S4x2048x16_S4x2048x16_2_1_1_2_0_0 : DotDims S4x2048x2048 S4x2048x16 S4x2048x16 where
  lhsContracting := [2]
  rhsContracting := [1]
  lhsNonContracting := [1]
  rhsNonContracting := [2]
  lhsBatch := [0]
  rhsBatch := [0]
  wf := dot_S4x2048x2048_S4x2048x16_S4x2048x16_2_1_1_2_0_0_wf
def dot_S4x2048x16_S4x16x2048_S4x2048x2048_2_1_1_2_0_0 : DotDims S4x2048x16 S4x16x2048 S4x2048x2048 where
  lhsContracting := [2]
  rhsContracting := [1]
  lhsNonContracting := [1]
  rhsNonContracting := [2]
  lhsBatch := [0]
  rhsBatch := [0]
  wf := dot_S4x2048x16_S4x16x2048_S4x2048x2048_2_1_1_2_0_0_wf
def fn_part1 {F : FTy → Type} [FloatOps F] (main_arg0 : FVec F S4x2048x2048 .f32) (main_arg3 : FVec F S4x2048x16 .f32) (main_arg4 : FVec F S4x16x2048 .f32) (main_v13 : IVec S_ 1) (main_v16 : IVec S4x2048x16 1) : IVec S_ 1 :=
  let main_c_5 : IVec S_ 1 := constantI S_ 1 1#1
  let main_v17 : IVec S_ 1 := (fun x v => Host.reduce IntOp.andi x v reducesTo_S4x2048x16_S_d0_1_2 h_S_) main_v16 main_c_5
  let main_v18 : IVec S_ 1 := andi main_v13 main_v17
  let main_v19 : FVec F S4x16x2048 .f32 := Host.absf main_arg4
  let main_cst_6 : FVec F S_ .f32 := constant S_ .f32 0x7F800000#32
  let main_v20 : FVec F S4x16x2048 .f32 := broadcastInDim S4x16x2048 ![] bcast_S_S4x16x2048 main_cst_6
  let main_v21 : IVec S4x16x2048 1 := cmpf .olt main_v19 main_v20
  let main_c_7 : IVec S_ 1 := constantI S_ 1 1#1
  let main_v22 : IVec S_ 1 := (fun x v => Host.reduce IntOp.andi x v reducesTo_S4x16x2048_S_d0_1_2 h_S_) main_v21 main_c_7
  let main_v23 : IVec S_ 1 := andi main_v18 main_v22
  let main_v24 : FVec F S4x2048x16 .f32 := (fun l r => Host.dotGeneral dot_S4x2048x2048_S4x2048x16_S4x2048x16_2_1_1_2_0_0 none l r) main_arg0 main_arg3
  let main_v25 : FVec F S4x2048x2048 .f32 := (fun l r => Host.dotGeneral dot_S4x2048x16_S4x16x2048_S4x2048x2048_2_1_1_2_0_0 none l r) main_v24 main_arg4
  let main_v26 : FVec F S4x2048x2048 .f32 := mulf main_v25 main_v25
  let main_cst_8 : FVec F S_ .f32 := constant S_ .f32 0x00000000#32
  let main_v27 : FVec F S4x2048 .f32 := (fun x v => Host.reduceAdd x v reducesTo_S4x2048x2048_S4x2048_d2 h_S_) main_v26 main_cst_8
  let main_v28 : FVec F S4x2048x1 .f32 := broadcastInDim S4x2048x1 ![0, 1] bcast_S4x2048_S4x2048x1_0_1 main_v27
  let main_v29 : FVec F S4x2048x1 .f32 := Host.sqrt main_v28
  let main_cst_9 : FVec F S_ .f32 := constant S_ .f32 0x00000000#32
  let main_v30 : FVec F S4x2048x1 .f32 := broadcastInDim S4x2048x1 ![] bcast_S_S4x2048x1 main_cst_9
  let main_v31 : IVec S4x2048x1 1 := cmpf .ogt main_v29 main_v30
  let main_c_10 : IVec S_ 1 := constantI S_ 1 1#1
  let main_v32 : IVec S_ 1 := (fun x v => Host.reduce IntOp.andi x v reducesTo_S4x2048x1_S_d0_1_2 h_S_) main_v31 main_c_10
  let main_v33 : IVec S_ 1 := andi main_v23 main_v32
  main_v33

def fn {F : FTy → Type} [FloatOps F] (main_arg0 : FVec F S4x2048x2048 .f32) (main_arg1 : FVec F S2048x2048 .f32) (main_arg2 : FVec F S2048 .f32) (main_arg3 : FVec F S4x2048x16 .f32) (main_arg4 : FVec F S4x16x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4x2048x16 .f32 := Host.absf main_arg3
  let main_cst_4 : FVec F S_ .f32 := constant S_ .f32 0x7F800000#32
  let main_v15 : FVec F S4x2048x16 .f32 := broadcastInDim S4x2048x16 ![] bcast_S_S4x2048x16 main_cst_4
  let main_v16 : IVec S4x2048x16 1 := cmpf .olt main_v14 main_v15
  fn_part1 (F := F) main_arg0 main_arg3 main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S1x2048 : Shape := ⟨2, ![1, 2048]⟩
abbrev S1x512x2048 : Shape := ⟨3, ![1, 512, 2048]⟩
abbrev S1x2048x16 : Shape := ⟨3, ![1, 2048, 16]⟩
abbrev S1x16x2048 : Shape := ⟨3, ![1, 16, 2048]⟩
abbrev S512x2048 : Shape := ⟨2, ![512, 2048]⟩
abbrev S2048x16 : Shape := ⟨2, ![2048, 16]⟩
abbrev S16x2048 : Shape := ⟨2, ![16, 2048]⟩
abbrev S512x16 : Shape := ⟨2, ![512, 16]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x16, .f32⟩
  | .hbm, ⟨4, _⟩ => ⟨S4x16x2048, .f32⟩
  | .hbm, ⟨5, _⟩ => ⟨S2048x2048, .f32⟩
  | .hbm, ⟨6, _⟩ => ⟨S2048x2048, .bf16⟩
  | .hbm, ⟨7, _⟩ => ⟨S4x2048x16, .bf16⟩
  | .hbm, ⟨8, _⟩ => ⟨S4x16x2048, .bf16⟩
  | .hbm, ⟨9, _⟩ => ⟨S1x2048, .f32⟩
  | .hbm, ⟨10, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x2048, .bf16⟩
  | .local _ .vmem, ⟨3, _⟩ => ⟨S1x2048x16, .bf16⟩
  | .local _ .vmem, ⟨4, _⟩ => ⟨S1x2048x16, .bf16⟩
  | .local _ .vmem, ⟨5, _⟩ => ⟨S1x16x2048, .bf16⟩
  | .local _ .vmem, ⟨6, _⟩ => ⟨S1x16x2048, .bf16⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  dot_S512x2048_S2048x2048_S512x2048_1_0_0_1_n_n_wf : DotDims.WF S512x2048 S2048x2048 S512x2048 [1] [0] [0] [1] [] []
  dot_S512x2048_S2048x16_S512x16_1_0_0_1_n_n_wf : DotDims.WF S512x2048 S2048x16 S512x16 [1] [0] [0] [1] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S4x2048x16.size a
  hwx0_2 : ∀ i : grid0.Coords, EltTy.bits .bf16 = 32 ∨ (Rect.block (s := S4x2048x16) S1x2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2048.size a ≤ S4x16x2048.size a
  hwx0_3 : ∀ i : grid0.Coords, EltTy.bits .bf16 = 32 ∨ (Rect.block (s := S4x16x2048) S1x16x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S4x2048x2048.size a
  hwx0_5 : ∀ i : grid0.Coords, EltTy.bits .f32 = 32 ∨ (Rect.block (s := S4x2048x2048) S1x512x2048.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S1x1x2048 : Shape := ⟨3, ![1, 1, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x16, .f32⟩
  | .hbm, ⟨4, _⟩ => ⟨S4x16x2048, .f32⟩
  | .hbm, ⟨5, _⟩ => ⟨S4x2048x2048, .f32⟩
  | .hbm, ⟨6, _⟩ => ⟨S1x1x2048, .f32⟩
  | .hbm, ⟨7, _⟩ => ⟨S4x2048x2048, .f32⟩
  | .hbm, ⟨8, _⟩ => ⟨S4x2048x2048, .f32⟩
  | .hbm, ⟨9, _⟩ => ⟨S4x2048x16, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S4x2048x16_S4x2048x16_2_1_1_2_0_0_wf : DotDims.WF S4x2048x2048 S4x2048x16 S4x2048x16 [2] [1] [1] [2] [0] [0]
  dot_S4x2048x16_S4x16x2048_S4x2048x2048_2_1_1_2_0_0_wf : DotDims.WF S4x2048x16 S4x16x2048 S4x2048x2048 [2] [1] [1] [2] [0] [0]

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S4x2048x16_S4x2048x16_2_1_1_2_0_0 : DotDims S4x2048x2048 S4x2048x16 S4x2048x16 where
  lhsContracting := [2]
  rhsContracting := [1]
  lhsNonContracting := [1]
  rhsNonContracting := [2]
  lhsBatch := [0]
  rhsBatch := [0]
  wf := dot_S4x2048x2048_S4x2048x16_S4x2048x16_2_1_1_2_0_0_wf
def dot_S4x2048x16_S4x16x2048_S4x2048x2048_2_1_1_2_0_0 : DotDims S4x2048x16 S4x16x2048 S4x2048x2048 where
  lhsContracting := [2]
  rhsContracting := [1]
  lhsNonContracting := [1]
  rhsNonContracting := [2]
  lhsBatch := [0]
  rhsBatch := [0]
  wf := dot_S4x2048x16_S4x16x2048_S4x2048x2048_2_1_1_2_0_0_wf

class Facts : Prop extends Facts₀ where

variable [Facts]
-- ==== Proof.Law.lean ====
/-
  One row of the computation, as plain sums over the extended reals, and the law that joins the two programs.

  For a row `a` of the input (2048 entries), the matching row `w` of the weight, a bias entry `β`, and the two
  low-rank factors `R` (2048 × 16) and `L` (16 × 2048) of the row's sample, the low-rank update of column `r` is
  `y r = ∑ k, (∑ d, a d * R d k) * L k r`, and its squared Euclidean norm over the row is `ss = ∑ r, y r * y r`.
  One program multiplies `y r` by the reciprocal square root of `ss`; the other divides `y r` by the square root of
  `ss`. On the extended reals these agree exactly where the square root of `ss` is positive: for a positive real `ss`
  both are `y r` times the real `(√ss)⁻¹`, and for `ss = ⊤` both factors are `0`. (At `ss = 0` they differ: `0 * ⊤ = 0`
  on one side, the quotient `0 / 0` on the other; that is the row the hypothesis excludes.)
-/
import Idealize.ShloMosaic.PureOps.Ideal
import Idealize.ShloMosaic.PureOps.Ideal.Laws

noncomputable section

open scoped BigOperators
open Idealize.ShloMosaic

namespace Cert.LoraNorm

/-- Where `√s` is positive, multiplying by `1/√s` is dividing by `√s`, for every extended real `y`. -/
theorem mul_rsqrt_eq_div_sqrt (y s : EReal) (h : 0 < Ideal.sqrt s) :
    y * Ideal.rsqrt s = Ideal.div y (Ideal.sqrt s) := by
  induction s using EReal.rec with
  | bot => simp at h
  | top => rw [Ideal.rsqrt_top, Ideal.sqrt_top, Ideal.div, if_neg EReal.top_ne_zero, EReal.inv_top]
  | coe r =>
    rw [Ideal.sqrt_coe] at h ⊢
    rw [Ideal.rsqrt_coe]
    by_cases hr : r < 0
    · rw [if_pos hr] at h; simp at h
    · rw [if_neg hr] at h ⊢
      have hpos : 0 < Real.sqrt r := by exact_mod_cast h
      have hr0 : r ≠ 0 := by rintro rfl; simp at hpos
      have hne : ((Real.sqrt r : ℝ) : EReal) ≠ 0 := by exact_mod_cast hpos.ne'
      rw [if_neg hr, if_neg hr0, Ideal.div, if_neg hne, EReal.coe_inv]

/-- The low-rank update of one row at column `r`: the row times `R`, then times column `r` of `L`. -/
def yRow (a : Fin 2048 → EReal) (R : Fin 2048 → Fin 16 → EReal) (L : Fin 16 → Fin 2048 → EReal) (r : Fin 2048) : EReal :=
  ∑ k : Fin 16, (∑ d : Fin 2048, a d * R d k) * L k r

/-- The squared Euclidean norm of the row's low-rank update. -/
def ssRow (a : Fin 2048 → EReal) (R : Fin 2048 → Fin 16 → EReal) (L : Fin 16 → Fin 2048 → EReal) : EReal :=
  ∑ r : Fin 2048, yRow a R L r * yRow a R L r

/-- One output entry, the update scaled by the reciprocal square root of its squared norm. -/
def scaledByRsqrt (a w : Fin 2048 → EReal) (β : EReal) (R : Fin 2048 → Fin 16 → EReal) (L : Fin 16 → Fin 2048 → EReal)
    (u : EReal) (r : Fin 2048) : EReal :=
  ((∑ d : Fin 2048, a d * w d) + β) + (yRow a R L r * Ideal.rsqrt (ssRow a R L)) * u

/-- One output entry, the update divided by its norm. -/
def dividedByNorm (a w : Fin 2048 → EReal) (β : EReal) (R : Fin 2048 → Fin 16 → EReal) (L : Fin 16 → Fin 2048 → EReal)
    (u : EReal) (r : Fin 2048) : EReal :=
  ((∑ d : Fin 2048, a d * w d) + β) + (Ideal.div (yRow a R L r) (Ideal.sqrt (ssRow a R L))) * u

/-- On a row whose norm is positive the two entries are equal. -/
theorem scaledByRsqrt_eq_dividedByNorm (a w : Fin 2048 → EReal) (β : EReal) (R : Fin 2048 → Fin 16 → EReal)
    (L : Fin 16 → Fin 2048 → EReal) (u : EReal) (r : Fin 2048) (h : 0 < Ideal.sqrt (ssRow a R L)) :
    scaledByRsqrt a w β R L u r = dividedByNorm a w β R L u r := by
  unfold scaledByRsqrt dividedByNorm
  rw [mul_rsqrt_eq_div_sqrt _ _ h]

end Cert.LoraNorm

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KerPayload.lean ====
/-
  The kernel body, entry by entry. From a block of 512 rows of one sample's input, the whole transposed weight,
  the sample's two low-rank factors and the bias row, the body writes at `(p, q)`: row `p` against column `q` of the
  transposed weight, plus the bias at `q`, plus the low-rank update of row `p` at column `q` times the reciprocal
  square root of the row's sum of squared updates (times the constant one). Each of its three matrix products is a
  plain rows-by-columns product, so at `(p, q)` it is the sum over the shared axis; the row sum of squares is a sum
  over the columns; everything else is a change of layout.
-/
import proofs.«104291_j80874234183963_2_alg».proof.Proof.Gen.KernelIdeal.Skeleton
import proofs.«104291_j80874234183963_2_alg».proof.Proof.Law
import proofs.«104291_j80874234183963_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LoraNorm

/-! ## The three matrix products at an entry -/

/-- Rows of 2048 against a 2048 × 2048 matrix: the operands' coordinates at an output entry and a position `t` along the shared axis. -/
theorem prodWeight_l0 (i : S512x2048.Idx) (t : dot_S512x2048_S2048x2048_S512x2048_1_0_0_1_n_n.contr.Idx) : (dot_S512x2048_S2048x2048_S512x2048_1_0_0_1_n_n.lhsIdx i t 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem prodWeight_l1 (i : S512x2048.Idx) (t : dot_S512x2048_S2048x2048_S512x2048_1_0_0_1_n_n.contr.Idx) : (dot_S512x2048_S2048x2048_S512x2048_1_0_0_1_n_n.lhsIdx i t 1).val = (t ⟨0, by decide⟩).val :=
  dot_S512x2048_S2048x2048_S512x2048_1_0_0_1_n_n.lhsIdx_val_of_single rfl i t
theorem prodWeight_r0 (i : S512x2048.Idx) (t : dot_S512x2048_S2048x2048_S512x2048_1_0_0_1_n_n.contr.Idx) : (dot_S512x2048_S2048x2048_S512x2048_1_0_0_1_n_n.rhsIdx i t 0).val = (t ⟨0, by decide⟩).val :=
  dot_S512x2048_S2048x2048_S512x2048_1_0_0_1_n_n.rhsIdx_val_of_single rfl i t
theorem prodWeight_r1 (i : S512x2048.Idx) (t : dot_S512x2048_S2048x2048_S512x2048_1_0_0_1_n_n.contr.Idx) : (dot_S512x2048_S2048x2048_S512x2048_1_0_0_1_n_n.rhsIdx i t 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- Rows of 2048 against a 2048 × 2048 matrix: the entry `(p, q)` is the sum over the shared axis of row `p` times column `q`. -/
theorem prodWeight_apply (l : FVec Ideal S512x2048 .bf16) (r : FVec Ideal S2048x2048 .bf16) (p : Fin 512) (q : Fin 2048) :
    matmul dot_S512x2048_S2048x2048_S512x2048_1_0_0_1_n_n none l r (constant (F := Ideal) S512x2048 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p q) ((ValueIdx.contrEquiv1 dot_S512x2048_S2048x2048_S512x2048_1_0_0_1_n_n 2048 rfl rfl).symm k) = ix2 p k := funext fun a => Fin.ext (by
    match a with
    | ⟨0, _⟩ => exact prodWeight_l0 _ _
    | ⟨1, _⟩ => exact (prodWeight_l1 _ _).trans hk)
  have er : dot_S512x2048_S2048x2048_S512x2048_1_0_0_1_n_n.rhsIdx (ix2 p q) ((ValueIdx.contrEquiv1 dot_S512x2048_S2048x2048_S512x2048_1_0_0_1_n_n 2048 rfl rfl).symm k) = ix2 k q := funext fun a => Fin.ext (by
    match a with
    | ⟨0, _⟩ => exact (prodWeight_r0 _ _).trans hk
    | ⟨1, _⟩ => exact prodWeight_r1 _ _)
  rw [el, er]

/-- Rows of 2048 against a 2048 × 16 matrix: the operands' coordinates at an output entry and a position `t` along the shared axis. -/
theorem prodRight_l0 (i : S512x16.Idx) (t : dot_S512x2048_S2048x16_S512x16_1_0_0_1_n_n.contr.Idx) : (dot_S512x2048_S2048x16_S512x16_1_0_0_1_n_n.lhsIdx i t 0).val = (i 0).val := by
  unfold DotDims.lhsIdx
  rw [dif_neg (show ¬(0 : Fin S512x2048.rank) ∈ dot_S512x2048_S2048x16_S512x16_1_0_0_1_n_n.lhsBatch by decide), dif_pos (show (0 : Fin S512x2048.rank) ∈ dot_S512x2048_S2048x16_S512x16_1_0_0_1_n_n.lhsNonContracting by decide)]
  rfl
theorem prodRight_l1 (i : S512x16.Idx) (t : dot_S512x2048_S2048x16_S512x16_1_0_0_1_n_n.contr.Idx) : (dot_S512x2048_S2048x16_S512x16_1_0_0_1_n_n.lhsIdx i t 1).val = (t ⟨0, by decide⟩).val :=
  dot_S512x2048_S2048x16_S512x16_1_0_0_1_n_n.lhsIdx_val_of_single rfl i t
theorem prodRight_r0 (i : S512x16.Idx) (t : dot_S512x2048_S2048x16_S512x16_1_0_0_1_n_n.contr.Idx) : (dot_S512x2048_S2048x16_S512x16_1_0_0_1_n_n.rhsIdx i t 0).val = (t ⟨0, by decide⟩).val :=
  dot_S512x2048_S2048x16_S512x16_1_0_0_1_n_n.rhsIdx_val_of_single rfl i t
theorem prodRight_r1 (i : S512x16.Idx) (t : dot_S512x2048_S2048x16_S512x16_1_0_0_1_n_n.contr.Idx) : (dot_S512x2048_S2048x16_S512x16_1_0_0_1_n_n.rhsIdx i t 1).val = (i 1).val := by
  unfold DotDims.rhsIdx
  rw [dif_neg (show ¬(1 : Fin S2048x16.rank) ∈ dot_S512x2048_S2048x16_S512x16_1_0_0_1_n_n.rhsBatch by decide), dif_pos (show (1 : Fin S2048x16.rank) ∈ dot_S512x2048_S2048x16_S512x16_1_0_0_1_n_n.rhsNonContracting by decide)]
  rfl

/-- Rows of 2048 against a 2048 × 16 matrix: the entry `(p, q)` is the sum over the shared axis of row `p` times column `q`. -/
theorem prodRight_apply (l : FVec Ideal S512x2048 .bf16) (r : FVec Ideal S2048x16 .bf16) (p : Fin 512) (q : Fin 16) :
    matmul dot_S512x2048_S2048x16_S512x16_1_0_0_1_n_n none l r (constant (F := Ideal) S512x16 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x16_S512x16_1_0_0_1_n_n 2048 rfl rfl).symm]
  refine Finset.sum_congr rfl fun k _ => ?_
  have hk := ValueIdx.contrEquiv1_symm_val dot_S512x2048_S2048x16_S512x16_1_0_0_1_n_n 2048 rfl rfl k
  have el : dot_S512x2048_S2048x16_S512x16_1_0_0_1_n_n.lhsIdx (ix2 p q) ((ValueIdx.contrEquiv1 dot_S512x2048_S2048x16_S512x16_1_0_0_1_n_n 2048 rfl rfl).symm k) = ix2 p k := funext fun a => Fin.ext (by
    match a with
    | ⟨0, _⟩ => exact prodRight_l0 _ _
    | ⟨1, _⟩ => exact (prodRight_l1 _ _).trans hk)
  have er : dot_S512x2048_S2048x16_S512x16_1_0_0_1_n_n.rhsIdx (ix2 p q) ((ValueIdx.contrEquiv1 dot_S512x2048_S2048x16_S512x16_1_0_0_1_n_n 2048 rfl rfl).symm k) = ix2 k q := funext fun a => Fin.ext (by
    match a with
    | ⟨0, _⟩ => exact (prodRight_r0 _ _).trans hk
    | ⟨1, _⟩ => exact prodRight_r1 _ _)
  rw [el, er]

/-- Rows of 16 against a 16 × 2048 matrix: the operands' coordinates at an output entry and a position `t` along the shared axis. -/
theorem prodLeft_l0 (i : S512x2048.Idx) (t : dot_S512x16_S16x2048_S512x2048_1_0_0_1_n_n.contr.Idx) : (dot_S512x16_S16x2048_S512x2048_1_0_0_1_n_n.lhsIdx i t 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl
theorem prodLeft_l1 (i : S512x2048.Idx) (t : dot_S512x16_S16x2048_S512x2048_1_0_0_1_n_n.contr.Idx) : (dot_S512x16_S16x2048_S512x2048_1_0_0_1_n_n.lhsIdx i t 1).val = (t ⟨0, by decide⟩).val :=
  dot_S512x16_S16x2048_S512x2048_1_0_0_1_n_n.lhsIdx_val_of_single rfl i t
theorem prodLeft_r0 (i : S512x2048.Idx) (t : dot_S512x16_S16x2048_S512x2048_1_0_0_1_n_n.contr.Idx) : (dot_S512x16_S16x2048_S512x2048_1_0_0_1_n_n.rhsIdx i t 0).val = (t ⟨0, by decide⟩).val :=
  dot_S512x16_S16x2048_S512x2048_1_0_0_1_n_n.rhsIdx_val_of_single rfl i t
theorem prodLeft_r1 (i : S512x2048.Idx) (t : dot_S512x16_S16x2048_S512x2048_1_0_0_1_n_n.contr.Idx) : (dot_S512x16_S16x2048_S512x2048_1_0_0_1_n_n.rhsIdx i t 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl

/-- Rows of 16 against a 16 × 2048 matrix: the entry `(p, q)` is the sum over the shared axis of row `p` times column `q`. -/
theorem prodLeft_apply (l : FVec Ideal S512x16 .bf16) (r : FVec Ideal S16x2048 .bf16) (p : Fin 512) (q : Fin 2048) :
    matmul dot_S512x16_S16x2048_S512x2048_1_0_0_1_n_n none l r (constant (F := Ideal) S512x2048 .f32 0x00000000#32) (ix2 p q)
      = ∑ k : Fin 16, l (ix2 p k) * r (ix2 k q) := by
  simp only [matmul]
  rw [Ideal.matmul_constant_zero_apply, ← Equiv.sum_comp (ValueIdx.contrEquiv1 dot_S512x16_S16x2048_S512x2048_1_0_0_1_n_n 16 rfl rfl).symm]
  refine Finset.sum_congr rfl fun k _ => ?_
  have hk := ValueIdx.contrEquiv1_symm_val dot_S512x16_S16x2048_S512x2048_1_0_0_1_n_n 16 rfl rfl k
  have el : dot_S512x16_S16x2048_S512x2048_1_0_0_1_n_n.lhsIdx (ix2 p q) ((ValueIdx.contrEquiv1 dot_S512x16_S16x2048_S512x2048_1_0_0_1_n_n 16 rfl rfl).symm k) = ix2 p k := funext fun a => Fin.ext (by
    match a with
    | ⟨0, _⟩ => exact prodLeft_l0 _ _
    | ⟨1, _⟩ => exact (prodLeft_l1 _ _).trans hk)
  have er : dot_S512x16_S16x2048_S512x2048_1_0_0_1_n_n.rhsIdx (ix2 p q) ((ValueIdx.contrEquiv1 dot_S512x16_S16x2048_S512x2048_1_0_0_1_n_n 16 rfl rfl).symm k) = ix2 k q := funext fun a => Fin.ext (by
    match a with
    | ⟨0, _⟩ => exact (prodLeft_r0 _ _).trans hk
    | ⟨1, _⟩ => exact prodLeft_r1 _ _)
  rw [el, er]

/-! ## The row sum -/

/-- The sum along a row of a 512 × 2048 array, at row `p`. -/
theorem rowSum_apply (src : FVec Ideal S512x2048 .f32) (h : S512x2048.Reduces [1] S512) (hφ : FKind.Formats .f32)
    (hacc : (0x00000000#32 : BitVec 32) = 0x00000000#32) (p : Fin 512) :
    multiReduction .add [1] S512 src 0x00000000#32 h hφ hacc (ix1 p) = ∑ k : Fin 2048, src (ix2 p k) := by
  refine (Ideal.multiReduction_add_single src 0x00000000#32 h hφ hacc (ix1 p)).trans ?_
  exact Finset.sum_congr rfl fun k _ => congrArg src (Cert.Rows.lift_row h p k)

/-! ## The body at an entry -/

/-- The low-rank update the body computes, at `(p, q)`: the block's row `p` through the two factor blocks. -/
theorem update_apply (x0 : FVec Ideal S1x512x2048 .f32) (x2 : FVec Ideal S1x2048x16 .bf16) (x3 : FVec Ideal S1x16x2048 .bf16)
    (h0 : S1x512x2048.ShapeCasts S512x2048) (h2 : S1x2048x16.ShapeCasts S2048x16) (h3 : S1x16x2048.ShapeCasts S16x2048)
    (hb : FTy.bits .bf16 < FTy.bits .f32) (p : Fin 512) (q : Fin 2048) :
    matmul dot_S512x16_S16x2048_S512x2048_1_0_0_1_n_n none
        (truncf .bf16 (matmul dot_S512x2048_S2048x16_S512x16_1_0_0_1_n_n none (truncf .bf16 (shapeCast S512x2048 x0 h0) hb)
          (shapeCast S2048x16 x2 h2) (constant (F := Ideal) S512x16 .f32 0x00000000#32)) hb)
        (shapeCast S16x2048 x3 h3) (constant (F := Ideal) S512x2048 .f32 0x00000000#32) (ix2 p q)
      = yRow (fun d => x0 (ix3 (0 : Fin 1) p d)) (fun d k => x2 (ix3 (0 : Fin 1) d k)) (fun k c => x3 (ix3 (0 : Fin 1) k c)) q := by
  rw [prodLeft_apply]
  unfold yRow
  refine Finset.sum_congr rfl fun k _ => ?_
  rw [truncf_apply, prodRight_apply, shapeCast_1ab_ab_apply]
  refine congrArg (· * _) (Finset.sum_congr rfl fun d _ => ?_)
  rw [truncf_apply, shapeCast_1ab_ab_apply, shapeCast_1ab_ab_apply]

/-- The body's result at `(p, q)` of its block. -/
theorem body_apply (x0 : FVec Ideal S1x512x2048 .f32) (x1 : FVec Ideal S2048x2048 .bf16) (x2 : FVec Ideal S1x2048x16 .bf16)
    (x3 : FVec Ideal S1x16x2048 .bf16) (x4 : FVec Ideal S1x2048 .f32) (u : Fin 1) (p : Fin 512) (q : Fin 2048) :
    k0_pay1 (F := Ideal) x0 x1 x2 x3 x4 (ix3 u p q)
      = scaledByRsqrt (fun d => x0 (ix3 (0 : Fin 1) p d)) (fun d => x1 (ix2 d q)) (x4 (ix2 (0 : Fin 1) q))
          (fun d k => x2 (ix3 (0 : Fin 1) d k)) (fun k c => x3 (ix3 (0 : Fin 1) k c)) (Ideal.ofBits .f32 0x3F800000#32) q := by
  unfold k0_pay1
  rw [shapeCast_ab_1ab_apply]
  simp only [addf_apply, mulf_apply, broadcast_apply]
  rw [prodWeight_apply, broadcastTo_1b_ab_apply, shapeCast_self, shapeCast_self, update_apply,
    Cert.Rows.bcast_col (by decide)]
  unfold scaledByRsqrt
  refine congrArg₂ (· + ·) (congrArg₂ (· + ·) (Finset.sum_congr rfl fun k _ => ?_) rfl)
    (congrArg₂ (· * ·) (congrArg₂ (· * ·) rfl ?_) rfl)
  · rw [truncf_apply, shapeCast_1ab_ab_apply]
  · refine congrArg Ideal.rsqrt ((Cert.Rows.cast_col _ _ p).trans ((rowSum_apply _ _ _ _ p).trans ?_))
    unfold ssRow
    refine Finset.sum_congr rfl fun r _ => ?_
    rw [mulf_apply, update_apply]

end Cert.KernelIdeal.Body

end
-- ==== Proof.Whole.lean ====
/-
  The result array as ONE function of the five argument arrays, two ways. At `(b, s, r)`: row `s` of sample `b` of the
  input against row `r` of the weight, plus the bias at `r`, plus the low-rank update of that row (through sample
  `b`'s factors) at column `r`, normalised over the row — by multiplying with the reciprocal square root of the row's
  sum of squares, or by dividing by its square root. The two arrays are equal when every row's norm is positive.
-/
import Idealize.ShloMosaic.Lib.ValueIdx
import proofs.«104291_j80874234183963_2_alg».proof.Proof.Law

noncomputable section

open scoped BigOperators
open Idealize.ShloMosaic Idealize.ShloMosaic.ValueIdx

namespace Cert.LoraNorm

variable (X0 : (⟨3, ![4, 2048, 2048]⟩ : Shape).Idx → EReal) (X1 : (⟨2, ![2048, 2048]⟩ : Shape).Idx → EReal)
  (X2 : (⟨1, ![2048]⟩ : Shape).Idx → EReal) (X3 : (⟨3, ![4, 2048, 16]⟩ : Shape).Idx → EReal)
  (X4 : (⟨3, ![4, 16, 2048]⟩ : Shape).Idx → EReal)

/-- The constant one both programs multiply the normalised update by. -/
abbrev unit : EReal := Ideal.ofBits .f32 0x3F800000#32

/-- Row `(b, s)`'s squared norm of the low-rank update. -/
def rowSq (b : Fin 4) (s : Fin 2048) : EReal :=
  ssRow (fun d => X0 (ix3 b s d)) (fun d k => X3 (ix3 b d k)) (fun k c => X4 (ix3 b k c))

/-- The entry `(b, s, r)`, normalising by the reciprocal square root. -/
def entryRsqrt (b : Fin 4) (s r : Fin 2048) : EReal :=
  scaledByRsqrt (fun d => X0 (ix3 b s d)) (fun d => X1 (ix2 r d)) (X2 (ix1 r))
    (fun d k => X3 (ix3 b d k)) (fun k c => X4 (ix3 b k c)) unit r

/-- The entry `(b, s, r)`, normalising by division. -/
def entryDiv (b : Fin 4) (s r : Fin 2048) : EReal :=
  dividedByNorm (fun d => X0 (ix3 b s d)) (fun d => X1 (ix2 r d)) (X2 (ix1 r))
    (fun d k => X3 (ix3 b d k)) (fun k c => X4 (ix3 b k c)) unit r

/-- The whole array, normalising by the reciprocal square root. -/
def arrayRsqrt : (⟨3, ![4, 2048, 2048]⟩ : Shape).Idx → EReal := fun i => entryRsqrt X0 X1 X2 X3 X4 (i 0) (i 1) (i 2)

/-- The whole array, normalising by division. -/
def arrayDiv : (⟨3, ![4, 2048, 2048]⟩ : Shape).Idx → EReal := fun i => entryDiv X0 X1 X2 X3 X4 (i 0) (i 1) (i 2)

/-- Where every row's norm is positive the two arrays are equal. -/
theorem arrayRsqrt_eq_arrayDiv (h : ∀ (b : Fin 4) (s : Fin 2048), 0 < Ideal.sqrt (rowSq X0 X3 X4 b s)) :
    arrayRsqrt X0 X1 X2 X3 X4 = arrayDiv X0 X1 X2 X3 X4 :=
  funext fun i => scaledByRsqrt_eq_dividedByNorm _ _ _ _ _ _ _ (h (i 0) (i 1))

end Cert.LoraNorm

end
-- ==== Proof.KerBlocks.lean ====
/-
  From blocks to the array. The grid has sixteen points `t`, sample `t / 4` and row block `t % 4`: point `t` reads
  rows `512 (t % 4) … 512 (t % 4) + 511` of sample `t / 4` of the input, the whole transposed weight, the sample's two
  factors and the bias row, and writes the same rows of the same sample of the result. The transposed weight, the
  factors in the matrix unit's format and the bias as a row are written by the host before the call: read at an
  index they are the weight at the swapped index, the factors themselves, and the bias. So every point writes its
  block of ONE function of the argument arrays, the sixteen blocks tile the result, and the result array is that
  function.
-/
import proofs.«104291_j80874234183963_2_alg».proof.Proof.Gen.KernelIdeal.Value
import proofs.«104291_j80874234183963_2_alg».proof.Proof.KerPayload
import proofs.«104291_j80874234183963_2_alg».proof.Proof.Whole
import Idealize.ShloMosaic.Lib.StableHlo.Run
import Idealize.ShloMosaic.Lib.ValueIdx
import Idealize.ShloMosaic.Lib.ValueLayout
import Idealize.ShloMosaic.Lib.Pipeline.Value

noncomputable section

open scoped BigOperators
open Idealize.ShloMosaic.Pipeline (Dat)

namespace Cert.KernelIdeal.Blocks

open Cert.KernelIdeal Cert.KernelIdeal.Gen Idealize.ShloMosaic Idealize.ShloMosaic.TcCoe Idealize.SL.Sem
  Idealize.ShloMosaic.StableHlo Idealize.ShloMosaic.ValueIdx Cert.LoraNorm

variable (m : (ℓ : Loc nD τ sig) → Buf (Elt Ideal) ℓ) (ρ : Dev nD → PrngReg)

/-! ## The arrays the host writes before the call -/

/-- The transposed weight at `(d, q)` is the weight at `(q, d)`. -/
theorem V_weightT_apply (c : Dev nD) (d q : Fin 2048) :
    (V m c main_v1 : S2048x2048.Idx → EReal) (ix2 d q) = (m ((c : Thread nD τ).loc main_arg1) : S2048x2048.Idx → EReal) (ix2 q d) := by
  have e : (V m c main_v1 : S2048x2048.Idx → EReal)
      = transpose S2048x2048 [1, 0] (m ((c : Thread nD τ).loc main_arg1) : S2048x2048.Idx → EReal) transposes_S2048x2048_S2048x2048_1_0 := by
    dsimp only [Gen.V, Gen.hostOps0]; after_results; rfl
  rw [e]
  exact transpose_ix2_apply _ _ d q

/-- The right factor in the matrix unit's format is the right factor. -/
theorem V_right_eq (c : Dev nD) :
    (V m c main_v2 : S4x2048x16.Idx → EReal) = (m ((c : Thread nD τ).loc main_arg3) : S4x2048x16.Idx → EReal) := by
  dsimp only [Gen.V, Gen.hostOps0]; after_results; rfl

/-- The left factor in the matrix unit's format is the left factor. -/
theorem V_left_eq (c : Dev nD) :
    (V m c main_v3 : S4x16x2048.Idx → EReal) = (m ((c : Thread nD τ).loc main_arg4) : S4x16x2048.Idx → EReal) := by
  dsimp only [Gen.V, Gen.hostOps0]; after_results; rfl

/-- The bias as a row, at `(0, q)`, is the bias at `q`. -/
theorem V_bias_apply (c : Dev nD) (u : Fin 1) (q : Fin 2048) :
    (V m c main_v4 : S1x2048.Idx → EReal) (ix2 u q) = (m ((c : Thread nD τ).loc main_arg2) : S2048.Idx → EReal) (ix1 q) := by
  have e : (V m c main_v4 : S1x2048.Idx → EReal)
      = shapeCast S1x2048 (m ((c : Thread nD τ).loc main_arg2)) shapeCasts_S2048_S1x2048 := by
    dsimp only [Gen.V, Gen.hostOps0]; after_results; rfl
  rw [e]
  exact shapeCast_a_1a_apply _ _ u q

/-! ## One entry of a block -/

/-- Row `p` of row block `sb` is a row of the array. -/
theorem row_lt (sb : Fin 4) (p : Fin 512) : 512 * sb.val + p.val < 2048 := by
  have := sb.isLt; have := p.isLt; omega

/-- If the five blocks are the rows of sample `b`, row block `sb`, of the argument arrays (the weight transposed),
    the body's result at an entry of its block is the whole array's function at the entry's place in the array. -/
theorem entry_of_blocks (x0 : FVec Ideal S1x512x2048 .f32) (x1 : FVec Ideal S2048x2048 .bf16) (x2 : FVec Ideal S1x2048x16 .bf16)
    (x3 : FVec Ideal S1x16x2048 .bf16) (x4 : FVec Ideal S1x2048 .f32)
    (X0 : S4x2048x2048.Idx → EReal) (X1 : S2048x2048.Idx → EReal) (X2 : S2048.Idx → EReal)
    (X3 : S4x2048x16.Idx → EReal) (X4 : S4x16x2048.Idx → EReal)
    (b sb : Fin 4) (y : S1x512x2048.Idx) (i : S4x2048x2048.Idx)
    (h0 : ∀ (p : Fin 512) (d : Fin 2048),
      x0 (ix3 (0 : Fin 1) p d) = X0 (ix3 b (⟨512 * sb.val + p.val, row_lt sb p⟩ : Fin 2048) d))
    (h1 : ∀ d q : Fin 2048, x1 (ix2 d q) = X1 (ix2 q d))
    (h2 : ∀ (d : Fin 2048) (k : Fin 16), x2 (ix3 (0 : Fin 1) d k) = X3 (ix3 b d k))
    (h3 : ∀ (k : Fin 16) (r : Fin 2048), x3 (ix3 (0 : Fin 1) k r) = X4 (ix3 b k r))
    (h4 : ∀ q : Fin 2048, x4 (ix2 (0 : Fin 1) q) = X2 (ix1 q))
    (hi0 : (i 0).val = b.val) (hi1 : (i 1).val = 512 * sb.val + (y 1).val) (hi2 : (i 2).val = (y 2).val) :
    k0_pay1 (F := Ideal) x0 x1 x2 x3 x4 y = arrayRsqrt X0 X1 X2 X3 X4 i := by
  obtain ⟨u, p, q, rfl⟩ : ∃ (u : Fin 1) (p : Fin 512) (q : Fin 2048), y = ix3 u p q := ⟨y 0, y 1, y 2, eq_ix3 y⟩
  have hi : i = ix3 b (⟨512 * sb.val + p.val, row_lt sb p⟩ : Fin 2048) q := by
    funext a; apply Fin.ext
    match a with
    | ⟨0, _⟩ => exact hi0
    | ⟨1, _⟩ => exact hi1
    | ⟨2, _⟩ => exact hi2
  rw [hi, Cert.KernelIdeal.Body.body_apply]
  unfold arrayRsqrt entryRsqrt
  simp only [h0, h1, h2, h3, h4]

/-! ## The grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen points: point `t` is sample `t / 4`, row block `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val / 4 ∧ win0_5.index t (1 : Fin 3) = t.val % 4 ∧ win0_5.index t (2 : Fin 3) = 0 :=
  (by decide +kernel : ∀ t : Fin grid0.N, _)

/-- Every (sample, row block) pair is some point's. -/
theorem idx_onto : ∀ (b sb : Fin 4), ∃ t : Fin cfg0.N, t.val = 4 * b.val + sb.val :=
  (by decide +kernel : ∀ (b sb : Fin 4), ∃ t : Fin grid0.N, t.val = 4 * b.val + sb.val)

/-- The result array as one function of the argument arrays. -/
abbrev result (c : Dev nD) : S4x2048x2048.Idx → EReal :=
  arrayRsqrt (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz3]
  simp only [View.ld_unit_zero (S := S1x512x2048) hz3, View.ld_unit_zero (S := S2048x2048) hz2,
    View.ld_unit_zero (S := S1x2048x16) hz3, View.ld_unit_zero (S := S1x16x2048) hz3, View.ld_unit_zero (S := S1x2048) hz2]
  obtain ⟨e00, e01, e02, e10, e11, e20, e21, e22, e30, e31, e32, e40, e41, e50, e51, e52⟩ := idx_facts t
  have hN : cfg0.N = 16 := N_0
  have ht : t.val < 16 := by have := t.isLt; omega
  funext y
  have hb : t.val / 4 < 4 := by omega
  have hsb : t.val % 4 < 4 := by omega
  have hy0 : (y 0).val < 1 := (y 0).isLt
  show k0_pay1 (iblk m c 0 t) (iblk m c 1 t) (iblk m c 2 t) (iblk m c 3 t) (iblk m c 4 t) y
    = result m c (((cfg0.win 5).blk t).view.emb y)
  refine entry_of_blocks (iblk m c 0 t) (iblk m c 1 t) (iblk m c 2 t) (iblk m c 3 t) (iblk m c 4 t) _ _ _ _ _
    ⟨t.val / 4, hb⟩ ⟨t.val % 4, hsb⟩ y (((cfg0.win 5).blk t).view.emb y) ?_ ?_ ?_ ?_ ?_ ?_ ?_ ?_
  · intro p d
    show V m c main_arg0 (((cfg0.win 0).blk t).view.emb (ix3 (0 : Fin 1) p d)) = _
    rw [V_main_arg0]
    refine congrArg _ (funext fun a => Fin.ext ?_)
    match a with
    | ⟨0, _⟩ => show win0_0.index t (0 : Fin 3) * 1 + 1 * 0 = t.val / 4; omega
    | ⟨1, _⟩ => show win0_0.index t (1 : Fin 3) * 512 + 1 * p.val = 512 * (t.val % 4) + p.val; omega
    | ⟨2, _⟩ => show win0_0.index t (2 : Fin 3) * 2048 + 1 * d.val = d.val; omega
  · intro d q
    have he : ((cfg0.win 1).blk t).view.emb (ix2 d q) = ix2 d q := funext fun a => Fin.ext (by
      match a with
      | ⟨0, _⟩ => show win0_1.index t (0 : Fin 2) * 2048 + 1 * d.val = d.val; omega
      | ⟨1, _⟩ => show win0_1.index t (1 : Fin 2) * 2048 + 1 * q.val = q.val; omega)
    exact (congrArg (V m c main_v1 : S2048x2048.Idx → EReal) he).trans (V_weightT_apply m c d q)
  · intro d k
    have he : ((cfg0.win 2).blk t).view.emb (ix3 (0 : Fin 1) d k) = ix3 (⟨t.val / 4, hb⟩ : Fin 4) d k := funext fun a => Fin.ext (by
      match a with
      | ⟨0, _⟩ => show win0_2.index t (0 : Fin 3) * 1 + 1 * 0 = t.val / 4; omega
      | ⟨1, _⟩ => show win0_2.index t (1 : Fin 3) * 2048 + 1 * d.val = d.val; omega
      | ⟨2, _⟩ => show win0_2.index t (2 : Fin 3) * 16 + 1 * k.val = k.val; omega)
    exact (congrArg (V m c main_v2 : S4x2048x16.Idx → EReal) he).trans (congrFun (V_right_eq m c) _)
  · intro k r
    have he : ((cfg0.win 3).blk t).view.emb (ix3 (0 : Fin 1) k r) = ix3 (⟨t.val / 4, hb⟩ : Fin 4) k r := funext fun a => Fin.ext (by
      match a with
      | ⟨0, _⟩ => show win0_3.index t (0 : Fin 3) * 1 + 1 * 0 = t.val / 4; omega
      | ⟨1, _⟩ => show win0_3.index t (1 : Fin 3) * 16 + 1 * k.val = k.val; omega
      | ⟨2, _⟩ => show win0_3.index t (2 : Fin 3) * 2048 + 1 * r.val = r.val; omega)
    exact (congrArg (V m c main_v3 : S4x16x2048.Idx → EReal) he).trans (congrFun (V_left_eq m c) _)
  · intro q
    have he : ((cfg0.win 4).blk t).view.emb (ix2 (0 : Fin 1) q) = ix2 (0 : Fin 1) q := funext fun a => Fin.ext (by
      match a with
      | ⟨0, _⟩ => show win0_4.index t (0 : Fin 2) * 1 + 1 * 0 = 0; omega
      | ⟨1, _⟩ => show win0_4.index t (1 : Fin 2) * 2048 + 1 * q.val = q.val; omega)
    exact (congrArg (V m c main_v4 : S1x2048.Idx → EReal) he).trans (V_bias_apply m c 0 q)
  · show win0_5.index t (0 : Fin 3) * 1 + 1 * (y 0).val = t.val / 4; omega
  · show win0_5.index t (1 : Fin 3) * 512 + 1 * (y 1).val = 512 * (t.val % 4) + (y 1).val; omega
  · show win0_5.index t (2 : Fin 3) * 2048 + 1 * (y 2).val = (y 2).val; omega

/-! ## The sixteen blocks tile the result -/

/-- An index of the array is in point `t`'s block iff each coordinate is in the block's range on its axis. -/
theorem mem_blk (t : Fin cfg0.N) (i : S4x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v5).slice (win0_5.rect t)).set ↔ _
  rw [View.set_slice_whole, Rect.mem_set_unit]
  exact Iff.rfl

/-- Every index of the result lies in the block of the point of its sample and its row block. -/
theorem cover (i : S4x2048x2048.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 2048 := (i 2).isLt
  obtain ⟨t, ht⟩ := idx_onto ⟨(i 0).val, h0⟩ ⟨(i 1).val / 512, by omega⟩
  have ht' : t.val = 4 * (i 0).val + (i 1).val / 512 := ht
  obtain ⟨-, -, -, -, -, -, -, -, -, -, -, -, -, e50, e51, e52⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- So the result array ends holding `result`. -/
theorem final (c : Dev nD) : (dats m 0 c).arrAt 5 cfg0.N = result m c :=
  (dats m 0 c).arrAt_eq_of_cover 5 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Blocks

end
-- ==== Proof.RefRead.lean ====
/-
  The reference, entry by entry. At the index `(b, s, r)` the reference's result is row `s` of sample `b` of the
  input against row `r` of the weight, plus the bias at `r`, plus the low-rank update of that row at column `r`
  divided by the update's Euclidean norm over the row; the norm itself, the number the reference divides by, is the
  square root of the row's sum of squares.
-/
import proofs.«104291_j80874234183963_2_alg».proof.Proof.Gen.ReferenceIdeal.Read
import proofs.«104291_j80874234183963_2_alg».proof.Proof.Law

noncomputable section

open scoped BigOperators

namespace Cert.ReferenceIdeal.RefValue

open Cert.ReferenceIdeal Cert.ReferenceIdeal.Read Idealize.ShloMosaic Idealize.ShloMosaic.ValueIdx Cert.LoraNorm

variable (x0 : (⟨S4x2048x2048, .f32⟩ : BufTy).Contents (Elt Ideal)) (x1 : (⟨S2048x2048, .f32⟩ : BufTy).Contents (Elt Ideal))
  (x2 : (⟨S2048, .f32⟩ : BufTy).Contents (Elt Ideal)) (x3 : (⟨S4x2048x16, .f32⟩ : BufTy).Contents (Elt Ideal))
  (x4 : (⟨S4x16x2048, .f32⟩ : BufTy).Contents (Elt Ideal))

/-- The low-rank update at `(b, s, r)`: row `s` of sample `b` through the sample's two factors. -/
theorem update_apply (b : Fin 4) (s r : Fin 2048) :
    val_main_v5 (F := Ideal) x0 x3 x4 (ix3 b s r)
      = yRow (fun d => x0 (ix3 b s d)) (fun d k => x3 (ix3 b d k)) (fun k c => x4 (ix3 b k c)) r := by
  rw [val_main_v5_apply]
  unfold yRow
  refine Finset.sum_congr rfl fun k _ => ?_
  rw [val_main_v4_apply]
  have e1 : ∀ d : Fin 2048, lidx_main_v4 (lidx_main_v5 (ix3 b s r) k) d = ix3 b s d := fun d =>
    funext fun a => by match a with | ⟨0, _⟩ => rfl | ⟨1, _⟩ => rfl | ⟨2, _⟩ => rfl
  have e2 : ∀ d : Fin 2048, ridx_main_v4 (lidx_main_v5 (ix3 b s r) k) d = ix3 b d k := fun d =>
    funext fun a => by match a with | ⟨0, _⟩ => rfl | ⟨1, _⟩ => rfl | ⟨2, _⟩ => rfl
  have e3 : ridx_main_v5 (ix3 b s r) k = ix3 b k r :=
    funext fun a => by match a with | ⟨0, _⟩ => rfl | ⟨1, _⟩ => rfl | ⟨2, _⟩ => rfl
  simp only [e1, e2, e3]

/-- The divisor at row `(b, s)`: the square root of the sum of the squared updates of the row. -/
theorem norm_apply (b : Fin 4) (s : Fin 2048) :
    val_main_v6 (F := Ideal) x0 x3 x4 (ix3 b s (0 : Fin 1))
      = Ideal.sqrt (ssRow (fun d => x0 (ix3 b s d)) (fun d k => x3 (ix3 b d k)) (fun k c => x4 (ix3 b k c))) := by
  rw [val_main_v6_apply, val_main_call0_v2_apply, val_main_call0_v1_apply, val_main_call0_cst_apply]
  show Ideal.sqrt (Ideal.ofBits .f32 0x00000000#32 + _) = _
  rw [Ideal.ofBits_zero_f32, zero_add]
  unfold ssRow
  refine congrArg Ideal.sqrt (Finset.sum_congr rfl fun k _ => ?_)
  have e : idx_main_call0_v1 (idx_main_call0_v2 (ix3 b s (0 : Fin 1))) k = ix3 b s k :=
    funext fun a => by match a with | ⟨0, _⟩ => rfl | ⟨1, _⟩ => rfl | ⟨2, _⟩ => rfl
  rw [val_main_call0_v0_apply, e, update_apply]
  rfl

/-- The reference's result at `(b, s, r)`. -/
theorem result_apply (b : Fin 4) (s r : Fin 2048) :
    val_main_v11 (F := Ideal) x0 x1 x2 x3 x4 (ix3 b s r)
      = dividedByNorm (fun d => x0 (ix3 b s d)) (fun d => x1 (ix2 r d)) (x2 (ix1 r))
          (fun d k => x3 (ix3 b d k)) (fun k c => x4 (ix3 b k c)) (Ideal.ofBits .f32 0x3F800000#32) r := by
  rw [val_main_v11_apply, val_main_v3_apply, val_main_v10_apply, val_main_v8_apply, val_main_v0_apply,
    val_main_v2_apply, val_main_v1_apply, val_main_v9_apply, val_main_cst_apply, val_main_v7_apply]
  have e0 : ∀ k : Fin 2048, lidx_main_v0 (ix3 b s r) k = ix3 b s k := fun k =>
    funext fun a => by match a with | ⟨0, _⟩ => rfl | ⟨1, _⟩ => rfl | ⟨2, _⟩ => rfl
  have e1 : ∀ k : Fin 2048, ridx_main_v0 (ix3 b s r) k = ix2 r k := fun k =>
    funext fun a => by match a with | ⟨0, _⟩ => rfl | ⟨1, _⟩ => rfl
  have e2 : idx_main_v1 (idx_main_v2 (ix3 b s r)) = ix1 r :=
    funext fun a => by match a with | ⟨0, _⟩ => rfl
  have e3 : idx_main_v7 (ix3 b s r) = ix3 b s (0 : Fin 1) :=
    funext fun a => by match a with | ⟨0, _⟩ => rfl | ⟨1, _⟩ => rfl | ⟨2, _⟩ => rfl
  simp only [e0, e1, e2, e3]
  rw [norm_apply, update_apply]
  rfl

end Cert.ReferenceIdeal.RefValue

end
-- ==== Proof.PreRead.lean ====
/-
  What the precondition's last conjunct says. It computes the number the reference divides by, row by row — the
  square root of the sum of the squared low-rank updates of the row — with the reference's own operations, and asks
  that it be positive everywhere. Read back at row `(b, s)`, it is the positivity of that square root.
-/
import proofs.«104291_j80874234183963_2_alg».proof.Pre_finite_inputs
import proofs.«104291_j80874234183963_2_alg».proof.Proof.Gen.Pre_finite_inputs
import proofs.«104291_j80874234183963_2_alg».proof.Proof.RefRead
import Idealize.ShloMosaic.Lib.ReduceAll

noncomputable section

open scoped BigOperators

namespace Cert.PreRead

open Idealize.ShloMosaic Idealize.ShloMosaic.ValueIdx Cert.LoraNorm

instance : Subsingleton Cert.Pre_finite_inputs.S_.Idx := ⟨fun a b => funext fun d => d.elim0⟩

/-- A comparison "greater than" that came out true says the strict inequality. -/
theorem lt_of_cmp_ogt {x y : EReal} (h : Ideal.cmp .ogt x y = 1#1) : y < x := by
  unfold Ideal.cmp at h
  by_contra hn
  simp [hn] at h

/-- Under the precondition the reference's divisor is positive on every row. -/
theorem norm_pos (x0 : FVec Ideal Cert.Pre_finite_inputs.S4x2048x2048 .f32) (x1 : FVec Ideal Cert.Pre_finite_inputs.S2048x2048 .f32)
    (x2 : FVec Ideal Cert.Pre_finite_inputs.S2048 .f32) (x3 : FVec Ideal Cert.Pre_finite_inputs.S4x2048x16 .f32)
    (x4 : FVec Ideal Cert.Pre_finite_inputs.S4x16x2048 .f32)
    (h : Cert.Pre_finite_inputs.fn (F := Ideal) x0 x1 x2 x3 x4 = fun _ => 1#1) (b : Fin 4) (s : Fin 2048) :
    0 < Ideal.sqrt (ssRow (fun d => x0 (ix3 b s d)) (fun d k => x3 (ix3 b d k)) (fun k c => x4 (ix3 b k c))) := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix3 b s (0 : Fin 1))
  have h3 := lt_of_cmp_ogt h2
  rw [← Cert.ReferenceIdeal.RefValue.norm_apply x0 x3 x4 b s]
  have hz : broadcastInDim Cert.Pre_finite_inputs.S4x2048x1 ![] Cert.Pre_finite_inputs.Facts.bcast_S_S4x2048x1
      (constant (F := Ideal) Cert.Pre_finite_inputs.S_ .f32 0x00000000#32) (ix3 b s (0 : Fin 1)) = 0 := by
    rw [broadcastInDim_apply _ _ _ _ ValueIdx.ix0 (fun a => a.elim0)]
    exact Ideal.ofBits_zero_f32
  rw [hz] at h3
  exact h3

end Cert.PreRead

end
-- ==== Proof.Bridge.lean ====
/-
  The two sides set beside each other. The reference's result is the whole array normalised by division; the
  precondition says every row's norm — the number the reference divides by — is positive; so the kernel's array,
  normalised by the reciprocal square root, is the reference's.
-/
import proofs.«104291_j80874234183963_2_alg».proof.Proof.RefRead
import proofs.«104291_j80874234183963_2_alg».proof.Proof.PreRead
import proofs.«104291_j80874234183963_2_alg».proof.Proof.Whole

noncomputable section

open scoped BigOperators

namespace Cert.Bridge

open Idealize.ShloMosaic Idealize.ShloMosaic.ValueIdx Cert.LoraNorm

variable (x0 : (⟨3, ![4, 2048, 2048]⟩ : Shape).Idx → EReal) (x1 : (⟨2, ![2048, 2048]⟩ : Shape).Idx → EReal)
  (x2 : (⟨1, ![2048]⟩ : Shape).Idx → EReal) (x3 : (⟨3, ![4, 2048, 16]⟩ : Shape).Idx → EReal)
  (x4 : (⟨3, ![4, 16, 2048]⟩ : Shape).Idx → EReal)

/-- The reference's result array is the whole array normalised by division. -/
theorem reference_eq :
    Cert.ReferenceIdeal.Read.val_main_v11 (F := Ideal) x0 x1 x2 x3 x4 = arrayDiv x0 x1 x2 x3 x4 := by
  funext i
  obtain ⟨b, s, r, rfl⟩ : ∃ (b : Fin 4) (s r : Fin 2048), i = ix3 b s r := ⟨i 0, i 1, i 2, eq_ix3 i⟩
  exact Cert.ReferenceIdeal.RefValue.result_apply x0 x1 x2 x3 x4 b s r

/-- Under the precondition the kernel's array is the reference's. -/
theorem arrays_eq (h : Cert.Pre_finite_inputs.fn (F := Ideal) x0 x1 x2 x3 x4 = fun _ => 1#1) :
    arrayRsqrt x0 x1 x2 x3 x4 = Cert.ReferenceIdeal.Read.val_main_v11 (F := Ideal) x0 x1 x2 x3 x4 := by
  rw [reference_eq]
  exact arrayRsqrt_eq_arrayDiv x0 x1 x2 x3 x4 fun b s => Cert.PreRead.norm_pos x0 x1 x2 x3 x4 h b s

end Cert.Bridge

end
-- ==== Proof.lean ====
/- The proof of `Cert.Claim`: the three programs run and leave their arguments as they were; the idealized kernel is
   the kernel's own text read over the extended reals (no operation was rewritten); and, from memories that agree on
   the five arguments and satisfy the precondition, the idealized kernel and the idealized reference end with equal
   result arrays.

   Both programs compute, at `(b, s, r)`, row `s` of sample `b` of the input against row `r` of the weight, plus the
   bias at `r`, plus the low-rank update `y` of that row at column `r` normalised by the Euclidean norm of `y` over
   the row. The kernel multiplies `y` by the reciprocal square root of the row's sum of squares; the reference
   divides `y` by the square root of that sum. On the extended reals the two agree exactly where that square root is
   positive (Proof/Law.lean), and the precondition's last conjunct says it is, on every row (Proof/PreRead.lean): on
   a row whose update vanishes the reference divides zero by zero.
   The kernel's result array as one function of the arguments is Proof/KerBlocks.lean (over Proof/KerPayload.lean,
   the body at an entry); the reference's is Proof/RefRead.lean; Proof/Bridge.lean sets them side by side. -/
import proofs.«104291_j80874234183963_2_alg».proof.Defs
import proofs.«104291_j80874234183963_2_alg».proof.Proof.Gen.Kernel
import proofs.«104291_j80874234183963_2_alg».proof.Proof.Gen.Kernel.Skeleton
import proofs.«104291_j80874234183963_2_alg».proof.Proof.Gen.Kernel.Launch
import proofs.«104291_j80874234183963_2_alg».proof.Proof.Gen.Kernel.Points
import proofs.«104291_j80874234183963_2_alg».proof.Proof.Gen.Kernel.Frame
import proofs.«104291_j80874234183963_2_alg».proof.Proof.Gen.KernelIdeal
import proofs.«104291_j80874234183963_2_alg».proof.Proof.Gen.KernelIdeal.Skeleton
import proofs.«104291_j80874234183963_2_alg».proof.Proof.Gen.KernelIdeal.Launch
import proofs.«104291_j80874234183963_2_alg».proof.Proof.Gen.KernelIdeal.Points
import proofs.«104291_j80874234183963_2_alg».proof.Proof.Gen.KernelIdeal.Frame
import proofs.«104291_j80874234183963_2_alg».proof.Proof.Gen.ReferenceIdeal
import proofs.«104291_j80874234183963_2_alg».proof.Proof.Gen.Pre_finite_inputs
import proofs.«104291_j80874234183963_2_alg».proof.Proof.Gen.KernelIdeal.Value
import proofs.«104291_j80874234183963_2_alg».proof.Proof.Gen.ReferenceIdeal.Run
import proofs.«104291_j80874234183963_2_alg».proof.Proof.Gen.ReferenceIdeal.Read
import proofs.«104291_j80874234183963_2_alg».proof.Proof.KerBlocks
import proofs.«104291_j80874234183963_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, the two idealized programs end with the same
    result array: the kernel's is the array normalised by the reciprocal square root (of the kernel's arguments), the
    reference's the array normalised by division (of its own, which are the kernel's), and the precondition makes
    every row's norm positive, where the two are one. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v11_eq]
  exact (Cert.Bridge.arrays_eq _ _ _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
